-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x16x2048x2048, .f32⟩
  | .hbm, ⟨10, _⟩ => ⟨S_, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S_, .f32⟩
  | .hbm, ⟨20, _⟩ => ⟨S2x16x2048x1, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S_S2x16x2048x1 : S_.BroadcastsInDim S2x16x2048x1 (![] : Fin 0 → Fin S2x16x2048x1.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The mathematics both programs compute, stated once and free of either program's text.

  For one attention head and one query row, with score row `s : Fin 2048 → EReal`:
    * `rowMax s`     the maximum of the row, folded from -∞;
    * `expShift s j` exp (s j - rowMax s);
    * `denom s`      1 + ∑ j, expShift s j      (the "off-by-one" softmax: one extra unit in the denominator);
    * `softmax1 s j` expShift s j / denom s.
  The attention weights are `softmax1` of the score row, and an output entry is the weights' sum against a column of `v`.
  The two programs differ only in how a score is formed: one scales each entry of `q` by 1/8 before the contraction
  with `k` (`scoresScaledQ`), the other contracts first and multiplies the sum by 1 / √64 (`scoresScaledSum`).
  Everything downstream is stated over an arbitrary family of score rows (`weightsOf`, `outputOf`), so the two
  programs meet as soon as their scores do.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of `q`, `k`, `v` and of the output: batch 2, heads 16, sequence 2048, head dimension 64. -/
abbrev SQ : Shape := ⟨4, ![2, 16, 2048, 64]⟩
/-- The shape of the attention weights: batch 2, heads 16, query position 2048, key position 2048. -/
abbrev SP : Shape := ⟨4, ![2, 16, 2048, 2048]⟩

/-- The maximum of a score row, folded from the float word for -∞. -/
def rowMax (s : Fin 2048 → EReal) : EReal :=
  (Finset.univ : Finset (Fin 2048)).fold max (Ideal.ofBits .f32 0xFF800000#32) s

/-- A score shifted by its row's maximum, exponentiated. -/
def expShift (s : Fin 2048 → EReal) (j : Fin 2048) : EReal := Ideal.exp (s j - rowMax s)

/-- The off-by-one denominator: the float word for 1, plus the row's sum of shifted exponentials. -/
def denom (s : Fin 2048 → EReal) : EReal := Ideal.ofBits .f32 0x3F800000#32 + ∑ j : Fin 2048, expShift s j

/-- The off-by-one softmax of a score row at key position `j`. -/
def softmax1 (s : Fin 2048 → EReal) (j : Fin 2048) : EReal := Ideal.div (expShift s j) (denom s)

/-- The attention weights from a family of score rows (one row per batch, head and query position). -/
def weightsOf (sc : Fin 2 → Fin 16 → Fin 2048 → Fin 2048 → EReal) : SP.Idx → EReal :=
  fun x => softmax1 (sc (x 0) (x 1) (x 2)) (x 3)

/-- The attention output from a family of score rows and `v`: the weights of a query row summed against a column of `v`. -/
def outputOf (sc : Fin 2 → Fin 16 → Fin 2048 → Fin 2048 → EReal) (v : SQ.Idx → EReal) : SQ.Idx → EReal :=
  fun x => ∑ j : Fin 2048, softmax1 (sc (x 0) (x 1) (x 2)) j * v (ix4 (x 0) (x 1) j (x 3))

/-- Scores with the scale folded into `q`: ∑ d, (q[b,h,i,d] · 1/8) · k[b,h,j,d], the 1/8 as its float word. -/
def scoresScaledQ (q k : SQ.Idx → EReal) (b : Fin 2) (h : Fin 16) (i : Fin 2048) : Fin 2048 → EReal :=
  fun j => ∑ d : Fin 64, (q (ix4 b h i d) * Ideal.ofBits .f32 0x3E000000#32) * k (ix4 b h j d)

/-- The scale as the other program forms it: the word for 1 divided by the square root of the word for 64. -/
def invSqrt64 : EReal := Ideal.div (Ideal.ofBits .f32 0x3F800000#32) (Ideal.sqrt (Ideal.ofBits .f32 0x42800000#32))

/-- Scores with the scale applied to the contracted sum: (∑ d, q[b,h,i,d] · k[b,h,j,d]) · (1 / √64). -/
def scoresScaledSum (q k : SQ.Idx → EReal) (b : Fin 2) (h : Fin 16) (i : Fin 2048) : Fin 2048 → EReal :=
  fun j => (∑ d : Fin 64, q (ix4 b h i d) * k (ix4 b h j d)) * invSqrt64

/-- The score rows one grid step forms from its own blocks: `qb` holds 512 query rows of one head, `kb` the head's 2048 key
    rows (both with two leading unit axes); row `p` is ∑ d, (qb[p,d] · 1/8) · kb[j,d], the 1/8 as its float word. -/
def blockScores (qb : (⟨4, ![1, 1, 512, 64]⟩ : Shape).Idx → EReal) (kb : (⟨4, ![1, 1, 2048, 64]⟩ : Shape).Idx → EReal)
    (p : Fin 512) : Fin 2048 → EReal :=
  fun j => ∑ d : Fin 64, (qb (ix4 (0 : Fin 1) (0 : Fin 1) p d) * Ideal.ofBits .f32 0x3E000000#32) * kb (ix4 (0 : Fin 1) (0 : Fin 1) j d)

end Cert.Attn

end
-- ==== Proof.ScaleLaw.lean ====
/-
  The two ways of scaling the scores agree on real inputs.

  One side multiplies every entry of `q` by the float word for 1/8 before contracting with `k`; the other contracts
  first and multiplies the sum by 1 / √64. The word 0x3E000000 is exactly 1/8, the word for 64 is exactly 64 and
  √64 = 8, so both scales are the real number 1/8. Moving the factor out of the sum is distributivity, which on the
  extended reals fails at infinities; on entries that are real numbers the whole computation is carried out in ℝ and
  the coercion is pushed through products and finite sums.
-/
import proofs.«137013_j47158740910630_2_alg».proof.Proof.Spec

noncomputable section

namespace Cert.Attn.Scale

open Idealize.ShloMosaic Idealize.ShloMosaic.ValueIdx Cert.Attn

/-- The float word 0x3E000000 denotes 1/8. -/
theorem ofBits_eighth : Ideal.ofBits .f32 0x3E000000#32 = ((1 / 8 : ℝ) : EReal) := by
  simp [Ideal.ofBits, Ideal.ieee, -EReal.coe_mul]; norm_num

/-- The float word 0x3F800000 denotes 1. -/
theorem ofBits_one : Ideal.ofBits .f32 0x3F800000#32 = ((1 : ℝ) : EReal) := by
  simp [Ideal.ofBits, Ideal.ieee, -EReal.coe_mul]; norm_num

/-- The float word 0x42800000 denotes 64. -/
theorem ofBits_sixtyfour : Ideal.ofBits .f32 0x42800000#32 = ((64 : ℝ) : EReal) := by
  simp [Ideal.ofBits, Ideal.ieee, -EReal.coe_mul]; norm_num

/-- √64 = 8. -/
theorem sqrt_sixtyfour : Real.sqrt 64 = 8 := by
  rw [show (64 : ℝ) = 8 ^ 2 by norm_num]; exact Real.sqrt_sq (by norm_num)

/-- 1 / √64, formed from the words for 1 and 64, is the real number 1/8. -/
theorem invSqrt64_eq : invSqrt64 = ((1 / 8 : ℝ) : EReal) := by
  unfold invSqrt64
  rw [ofBits_one, ofBits_sixtyfour, Ideal.sqrt_coe, if_neg (by norm_num), sqrt_sixtyfour,
    Ideal.div_coe (by norm_num : (8 : ℝ) ≠ 0), ← EReal.coe_mul]
  norm_num

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On reals a common factor leaves the contraction: ∑ d, (a d · c) · b d = (∑ d, a d · b d) · c. -/
theorem sum_scale_real (a b : Fin 64 → ℝ) (c : ℝ) :
    ∑ d, ((a d : EReal) * (c : EReal)) * (b d : EReal) = (∑ d, (a d : EReal) * (b d : EReal)) * (c : EReal) := by
  simp only [← EReal.coe_mul, ← coe_sum]
  refine congrArg _ ?_
  rw [Finset.sum_mul]
  exact Finset.sum_congr rfl fun d _ => by ring

/-- On arrays of real numbers the two score families are one. -/
theorem scores_eq (q k : SQ.Idx → EReal) (hq : ∀ x, ∃ r : ℝ, q x = (r : EReal)) (hk : ∀ x, ∃ r : ℝ, k x = (r : EReal)) :
    scoresScaledQ q k = scoresScaledSum q k := by
  choose qr hqr using hq
  choose kr hkr using hk
  funext b h i j
  unfold scoresScaledQ scoresScaledSum
  simp only [hqr, hkr, ofBits_eighth, invSqrt64_eq]
  exact sum_scale_real _ _ _

end Cert.Attn.Scale

end
-- ==== Proof.Finite.lean ====
/-
  The precondition of the claim is a printed predicate: for each of the three arguments it forms |x| entry by entry,
  compares it with +∞ by "strictly less", folds all the comparisons with "and" starting from true, and joins the three
  folds with "and". This module reads that predicate back as the plain statement it encodes: every entry of each
  argument is a real number (neither of the two infinities).

  Three small steps:
    * the float word with all eight exponent bits set and an empty significand denotes +∞;
    * for one extended real x: if max x (-x) < +∞ then x is a real — x = +∞ gives max = +∞, and x = -∞ gives -x = +∞,
      so both infinities contradict the strict inequality;
    * a fold by "and" over one-bit words that ends in 1 met only 1s, so the comparison holds at every entry.
-/
import proofs.«137013_j47158740910630_2_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

namespace Cert.Attn.Pre

open Idealize.ShloMosaic

/-- The word 0x7F800000 (sign 0, exponent all ones, significand 0) denotes +∞. -/
theorem ofBits_posInf : Ideal.ofBits .f32 0x7F800000#32 = (⊤ : EReal) := by
  simp [Ideal.ofBits, Ideal.ieee]

/-- An extended real whose absolute value max x (-x) compares strictly below the +∞ word is a real number. -/
theorem real_of_abs_lt_inf (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | coe r => exact ⟨r, rfl⟩
  | top => simp [Ideal.cmp] at h

/-- A shape of rank 0 has exactly one index. -/
instance : Subsingleton Cert.Pre_finite_inputs.S_.Idx := ⟨fun _ _ => funext fun d => d.elim0⟩

/-- One argument's part of the predicate: if the fold by "and" of the comparisons |a x| < +∞ over all four axes is 1,
    then every entry of a is a real number. -/
theorem all_real [Cert.Pre_finite_inputs.Facts] (a : FVec Ideal Cert.Pre_finite_inputs.S2x16x2048x64 .f32)
    (init : IVec Cert.Pre_finite_inputs.S_ 1) (j : Cert.Pre_finite_inputs.S_.Idx)
    (e : Host.reduce IntOp.andi
          (cmpf .olt (Host.absf a)
            (broadcastInDim Cert.Pre_finite_inputs.S2x16x2048x64 ![] Cert.Pre_finite_inputs.Facts.bcast_S_S2x16x2048x64
              (constant (F := Ideal) Cert.Pre_finite_inputs.S_ .f32 0x7F800000#32)))
          init Cert.Pre_finite_inputs.Facts.reducesTo_S2x16x2048x64_S_d0_1_2_3 Cert.Pre_finite_inputs.Facts.h_S_ j = 1#1) :
    ∀ x, ∃ r : ℝ, a x = (r : EReal) := fun x =>
  real_of_abs_lt_inf (a x) (Host.reduce_andi_all _ init _ _ j e x)

/-- The precondition, read back: every entry of each of the three arguments is a real number. -/
theorem real_of_pre [Cert.Pre_finite_inputs.Facts] (a0 a1 a2 : FVec Ideal Cert.Pre_finite_inputs.S2x16x2048x64 .f32)
    (h : Cert.Pre_finite_inputs.fn (F := Ideal) a0 a1 a2 = fun _ => 1#1) :
    (∀ x, ∃ r : ℝ, a0 x = (r : EReal)) ∧ (∀ x, ∃ r : ℝ, a1 x = (r : EReal)) ∧ (∀ x, ∃ r : ℝ, a2 x = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨all_real a0 _ _ h0', all_real a1 _ _ h1, all_real a2 _ _ h2⟩

end Cert.Attn.Pre
-- ==== Proof.RefSide.lean ====
/-
  The reference program, read one operation at a time, computes the specification's off-by-one softmax attention
  with the scale applied to the contracted sum.

  For a batch b, head h and query row i, write s = scoresScaledSum q k b h i for the score row. The program forms
    * the scale 1 / √64 once, as a scalar, and spreads it over the whole score array;
    * the score s j = (∑ d, q[b,h,i,d] · k[b,h,j,d]) · (1 / √64);
    * the row's maximum, folded from -∞ along the key axis;
    * exp (s j - max), the sum of these along the key axis started from 0, and 1 plus that sum;
    * the quotient of the two, which is the attention weight, and its contraction with v along the key axis.
  Each lemma below reads one of these stages at an index given by its coordinates and identifies it with the
  corresponding piece of the specification; no float word is evaluated except the zero that starts the sum.
-/
import proofs.«137013_j47158740910630_2_alg».proof.Proof.Gen.ReferenceIdeal.Read
import proofs.«137013_j47158740910630_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.Attn.Ref

open Cert.ReferenceIdeal Cert.ReferenceIdeal.Read Idealize.ShloMosaic Idealize.ShloMosaic.ValueIdx Cert.Attn

/-- The scalar the program multiplies the contracted sums by is 1 / √64, formed from the same two float words as
    the specification's scale. -/
theorem ref_scale (i : S_.Idx) : val_main_v1 (F := Ideal) i = invSqrt64 := rfl

/-- A score: the contraction of a query row with a key row over the head dimension, times the scale. -/
theorem ref_scores (x0 x1 : (⟨S2x16x2048x64, .f32⟩ : BufTy).Contents (Elt Ideal))
    (b : Fin 2) (h : Fin 16) (i j : Fin 2048) :
    val_main_v4 (F := Ideal) x0 x1 (ix4 b h i j) = scoresScaledSum x0 x1 b h i j := by
  have el : ∀ k : Fin 64, lidx_main_v2 (ix4 b h i j) k = ix4 b h i k := fun k =>
    funext fun a => Fin.ext (by match a with | ⟨0, _⟩ => rfl | ⟨1, _⟩ => rfl | ⟨2, _⟩ => rfl | ⟨3, _⟩ => rfl)
  have er : ∀ k : Fin 64, ridx_main_v2 (ix4 b h i j) k = ix4 b h j k := fun k =>
    funext fun a => Fin.ext (by match a with | ⟨0, _⟩ => rfl | ⟨1, _⟩ => rfl | ⟨2, _⟩ => rfl | ⟨3, _⟩ => rfl)
  rw [val_main_v4_apply, val_main_v2_apply, val_main_v3_apply, ref_scale]
  simp only [el, er, Ideal.mulf_def]
  rfl

/-- A maximum taken along the last axis of a [2,16,2048,2048] array is, at (b,h,i), the fold of `max` over the
    2048 entries of that row, started from the initial scalar. Maximum is commutative and associative, so the fold
    over the indices lying above (b,h,i) may be taken over the last coordinate alone. -/
theorem rowmax_read (y : S2x16x2048x2048.Idx → EReal) (init : S_.Idx → EReal)
    (h' : S2x16x2048x2048.ReducesTo [3] S2x16x2048) (hu : 0 < S_.numel)
    (b : Fin 2) (h : Fin 16) (i : Fin 2048) :
    Host.reduce (FloatOps.maximumf (F := Ideal) (φ := .f32)) y init h' hu (ix3 b h i)
      = (Finset.univ : Finset (Fin 2048)).fold max (init (Shape.Idx.first hu)) (fun j => y (ix4 b h i j)) := by
  have hr : S2x16x2048x2048.Reduces [3] S2x16x2048 := by decide
  refine (Host.reduce_eq_fold_single _ y init h' hr hu (ix3 b h i)).trans ?_
  have hl : ∀ k : Fin 2048, hr.lift (ix3 b h i) k = ix4 b h i k := fun k =>
    funext fun a => Fin.ext (by match a with | ⟨0, _⟩ => rfl | ⟨1, _⟩ => rfl | ⟨2, _⟩ => rfl | ⟨3, _⟩ => rfl)
  have hf : (y ∘ hr.lift (ix3 b h i)) = fun j : Fin 2048 => y (ix4 b h i j) :=
    funext fun k => congrArg y (hl k)
  rw [hf]
  rfl

/-- The row maximum of the scores, folded from the word for -∞. -/
theorem ref_rowmax (x0 x1 : (⟨S2x16x2048x64, .f32⟩ : BufTy).Contents (Elt Ideal))
    (b : Fin 2) (h : Fin 16) (i : Fin 2048) :
    val_main_v5 (F := Ideal) x0 x1 (ix3 b h i) = rowMax (scoresScaledSum x0 x1 b h i) := by
  unfold val_main_v5
  refine (rowmax_read _ _ _ _ b h i).trans ?_
  rw [show (fun j : Fin 2048 => val_main_v4 (F := Ideal) x0 x1 (ix4 b h i j)) = scoresScaledSum x0 x1 b h i from
    funext fun j => ref_scores x0 x1 b h i j]
  rfl

/-- A score minus its row's maximum, exponentiated. The maximum reaches position (b,h,i,j) through two
    spreadings (first along a new unit axis, then along the key axis), both of which forget j. -/
theorem ref_exp (x0 x1 : (⟨S2x16x2048x64, .f32⟩ : BufTy).Contents (Elt Ideal))
    (b : Fin 2) (h : Fin 16) (i j : Fin 2048) :
    val_main_v9 (F := Ideal) x0 x1 (ix4 b h i j) = expShift (scoresScaledSum x0 x1 b h i) j := by
  have e : idx_main_v6 (idx_main_v7 (ix4 b h i j)) = ix3 b h i :=
    funext fun a => Fin.ext (by match a with | ⟨0, _⟩ => rfl | ⟨1, _⟩ => rfl | ⟨2, _⟩ => rfl)
  rw [val_main_v9_apply, val_main_v8_apply, val_main_v7_apply, val_main_v6_apply, e, ref_rowmax, ref_scores]
  rfl

/-- The sum of the shifted exponentials along the key axis; it starts from the zero word, which adds nothing. -/
theorem ref_sum (x0 x1 : (⟨S2x16x2048x64, .f32⟩ : BufTy).Contents (Elt Ideal))
    (b : Fin 2) (h : Fin 16) (i : Fin 2048) :
    val_main_v10 (F := Ideal) x0 x1 (ix3 b h i) = ∑ j : Fin 2048, expShift (scoresScaledSum x0 x1 b h i) j := by
  have e : ∀ k : Fin 2048, idx_main_v10 (ix3 b h i) k = ix4 b h i k := fun k =>
    funext fun a => Fin.ext (by match a with | ⟨0, _⟩ => rfl | ⟨1, _⟩ => rfl | ⟨2, _⟩ => rfl | ⟨3, _⟩ => rfl)
  rw [val_main_v10_apply, val_main_cst_2_apply, Ideal.ofBits_def, Ideal.ofBits_zero_f32, zero_add]
  exact Finset.sum_congr rfl fun k _ => by rw [e, ref_exp]

/-- The denominator: the word for 1 plus the row's sum, spread back along the key axis. -/
theorem ref_denom (x0 x1 : (⟨S2x16x2048x64, .f32⟩ : BufTy).Contents (Elt Ideal))
    (b : Fin 2) (h : Fin 16) (i j : Fin 2048) :
    val_main_v14 (F := Ideal) x0 x1 (ix4 b h i j) = denom (scoresScaledSum x0 x1 b h i) := by
  have e : idx_main_v11 (idx_main_v14 (ix4 b h i j)) = ix3 b h i :=
    funext fun a => Fin.ext (by match a with | ⟨0, _⟩ => rfl | ⟨1, _⟩ => rfl | ⟨2, _⟩ => rfl)
  rw [val_main_v14_apply, val_main_v13_apply, val_main_v12_apply, val_main_cst_3_apply, val_main_v11_apply, e, ref_sum]
  rfl

/-- One attention weight: the shifted exponential over the denominator. -/
theorem ref_weight (x0 x1 : (⟨S2x16x2048x64, .f32⟩ : BufTy).Contents (Elt Ideal))
    (b : Fin 2) (h : Fin 16) (i j : Fin 2048) :
    val_main_v15 (F := Ideal) x0 x1 (ix4 b h i j) = softmax1 (scoresScaledSum x0 x1 b h i) j := by
  rw [val_main_v15_apply, ref_exp, ref_denom]
  rfl

/-- The program's attention weights are the specification's, from the scores scaled after the contraction. -/
theorem ref_weights (x0 x1 : (⟨S2x16x2048x64, .f32⟩ : BufTy).Contents (Elt Ideal)) :
    val_main_v15 (F := Ideal) x0 x1 = weightsOf (scoresScaledSum x0 x1) := by
  funext x
  obtain ⟨b, h, i, j, rfl⟩ : ∃ (b : Fin 2) (h : Fin 16) (i j : Fin 2048), x = ix4 b h i j :=
    ⟨x 0, x 1, x 2, x 3, eq_ix4 x⟩
  exact ref_weight x0 x1 b h i j

/-- The program's output is the specification's: each entry sums a query row's weights against a column of v. -/
theorem ref_output (x0 x1 x2 : (⟨S2x16x2048x64, .f32⟩ : BufTy).Contents (Elt Ideal)) :
    val_main_v16 (F := Ideal) x0 x1 x2 = outputOf (scoresScaledSum x0 x1) x2 := by
  funext x
  obtain ⟨b, h, i, d, rfl⟩ : ∃ (b : Fin 2) (h : Fin 16) (i : Fin 2048) (d : Fin 64), x = ix4 b h i d :=
    ⟨x 0, x 1, x 2, x 3, eq_ix4 x⟩
  rw [val_main_v16_apply]
  show _ = ∑ k : Fin 2048, softmax1 (scoresScaledSum x0 x1 b h i) k * x2 (ix4 b h k d)
  refine Finset.sum_congr rfl fun k _ => ?_
  have el : lidx_main_v16 (ix4 b h i d) k = ix4 b h i k :=
    funext fun a => Fin.ext (by match a with | ⟨0, _⟩ => rfl | ⟨1, _⟩ => rfl | ⟨2, _⟩ => rfl | ⟨3, _⟩ => rfl)
  have er : ridx_main_v16 (ix4 b h i d) k = ix4 b h k d :=
    funext fun a => Fin.ext (by match a with | ⟨0, _⟩ => rfl | ⟨1, _⟩ => rfl | ⟨2, _⟩ => rfl | ⟨3, _⟩ => rfl)
  rw [el, er, ref_weight]

end Cert.Attn.Ref

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Payload.lean ====
/-
  One grid step's arithmetic, read entry by entry.

  A grid step holds 512 query rows of one head together with the head's 2048 key rows and 2048 value rows. Its body scales
  the query block by 1/8, contracts it with the key block into a 512 × 2048 block of scores, subtracts from every score
  its row's maximum, exponentiates, divides by one plus the row's sum of exponentials, and finally contracts these weights
  with the value block. This file reads each step at a single entry:
    * dropping or adding the two leading unit axes of a block moves no entry (same row-major position);
    * a contraction over one axis into the zero accumulator is a finite sum of products over that axis;
    * a reduction over the key axis is the fold of `max` from -∞, resp. the sum, over the row;
    * a per-row quantity kept as a column and copied along the key axis is read back at its row.
  Put together, entry `(p, j)` of the weights block is the off-by-one softmax of row `p` of the block's scores at `j`
  (`pay1_apply`), and entry `(0, 0, p, d)` of the output block is that row of weights summed against column `d` of the
  value block (`pay3_apply`). The float words for -∞, 1 and 1/8 are carried along unevaluated; only the zero word of the
  accumulators is read as the number 0.
-/
import proofs.«137013_j47158740910630_2_alg».proof.Proof.Gen.KernelIdeal.Skeleton
import proofs.«137013_j47158740910630_2_alg».proof.Proof.Spec
import proofs.«137013_j47158740910630_2_alg».proof.Proof.LibKeepdims
import Idealize.ShloMosaic.PureOps.Ideal.Laws
import Idealize.ShloMosaic.Lib.ValueIdx
import Idealize.ShloMosaic.Lib.Pipeline.Value

noncomputable section

namespace Cert.Attn.Body

open Cert.KernelIdeal Cert.KernelIdeal.Gen Idealize.ShloMosaic Idealize.ShloMosaic.ValueIdx Cert.Attn

/-! ## Layout: a block's two leading unit axes -/

/-- A block of shape `[1, 1, n, m]` cast to the matrix `[n, m]` keeps entry `(0, 0, p, d)` at `(p, d)`: the two have
    the same row-major position `p · m + d`. -/
theorem dropUnits_apply {α : Type} {n m : ℕ} (x : (⟨4, ![1, 1, n, m]⟩ : Shape).Idx → α)
    (h : (⟨4, ![1, 1, n, m]⟩ : Shape).ShapeCasts ⟨2, ![n, m]⟩) (p : Fin n) (d : Fin m) :
    shapeCast ⟨2, ![n, m]⟩ x h (ix2 p d) = x (ix4 (0 : Fin 1) (0 : Fin 1) p d) :=
  shapeCast_apply x h _ _ (by
    rw [Shape.rowMajor_val_four, Shape.rowMajor_val_two]
    show ((0 * 1 + 0) * n + p.val) * m + d.val = p.val * m + d.val
    rw [Nat.zero_mul, Nat.zero_add])

/-- A matrix `[n, m]` cast to the block `[1, 1, n, m]` puts entry `(p, d)` at `(a, b, p, d)`, the unit coordinates
    `a`, `b` being zero. -/
theorem addUnits_apply {α : Type} {n m : ℕ} (x : (⟨2, ![n, m]⟩ : Shape).Idx → α)
    (h : (⟨2, ![n, m]⟩ : Shape).ShapeCasts ⟨4, ![1, 1, n, m]⟩) (a b : Fin 1) (p : Fin n) (d : Fin m) :
    shapeCast ⟨4, ![1, 1, n, m]⟩ x h (ix4 a b p d) = x (ix2 p d) :=
  shapeCast_apply x h _ _ (by
    have ha : a.val = 0 := by omega
    have hb : b.val = 0 := by omega
    rw [Shape.rowMajor_val_four, Shape.rowMajor_val_two]
    show p.val * m + d.val = ((a.val * 1 + b.val) * n + p.val) * m + d.val
    rw [ha, hb, Nat.zero_mul, Nat.zero_add])

/-! ## The two contractions -/

/-- In the score contraction the left operand's row is the output's row … -/
theorem scoreDot_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
/-- … its column the contracted coordinate … -/
theorem scoreDot_lhs1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- … the right operand's row the output's column … -/
theorem scoreDot_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
/-- … and its column the contracted coordinate again. -/
theorem scoreDot_rhs1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score contraction: both operands are contracted along their second axis, so the entry `(p, j)` of the product
    into the zero accumulator is the sum over `d` of `A (p, d) · B (j, d)`. The contraction's own index set has one axis
    of extent 64; the sum is carried over to `Fin 64` along the bijection between the two, and the operand indices at
    `(p, j)` and `d` are `(p, d)` and `(j, d)` coordinate by coordinate. -/
theorem scoreDot_apply (A : FVec Ideal S512x64 .f32) (B : FVec Ideal S2048x64 .f32) (p : Fin 512) (j : Fin 2048) :
    matmul (F := Ideal) dot_S512x64_S2048x64_S512x2048_1_1_0_0_n_n (some .fp32) A B (constant S512x2048 .f32 0x00000000#32) (ix2 p j)
      = ∑ d : Fin 64, A (ix2 p d) * B (ix2 j d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 p j) ((contrEquiv1 dot_S512x64_S2048x64_S512x2048_1_1_0_0_n_n 64 rfl rfl).symm k) = ix2 p k := funext fun a => Fin.ext (by
    match a with
    | ⟨0, _⟩ => exact scoreDot_lhs0 _ _
    | ⟨1, _⟩ => exact (scoreDot_lhs1 _ _).trans hk)
  have er : dot_S512x64_S2048x64_S512x2048_1_1_0_0_n_n.rhsIdx (ix2 p j) ((contrEquiv1 dot_S512x64_S2048x64_S512x2048_1_1_0_0_n_n 64 rfl rfl).symm k) = ix2 j k := funext fun a => Fin.ext (by
    match a with
    | ⟨0, _⟩ => exact scoreDot_rhs0 _ _
    | ⟨1, _⟩ => exact (scoreDot_rhs1 _ _).trans hk)
  rw [el, er]

/-- In the output contraction the left operand's row is the output's row … -/
theorem outDot_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- … its column the contracted coordinate … -/
theorem outDot_lhs1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- … the right operand's row the contracted coordinate … -/
theorem outDot_rhs0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- … and its column the output's column. -/
theorem outDot_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output contraction: an ordinary matrix product, the left operand's second axis against the right operand's first,
    so the entry `(p, d)` of the product into the zero accumulator is the sum over `j` of `W (p, j) · V (j, d)`. -/
theorem outDot_apply (W : FVec Ideal S512x2048 .f32) (V : FVec Ideal S2048x64 .f32) (p : Fin 512) (d : Fin 64) :
    matmul (F := Ideal) dot_S512x2048_S2048x64_S512x64_1_0_0_1_n_n (some .fp32) W V (constant S512x64 .f32 0x00000000#32) (ix2 p d)
      = ∑ j : Fin 2048, W (ix2 p j) * V (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p d) ((contrEquiv1 dot_S512x2048_S2048x64_S512x64_1_0_0_1_n_n 2048 rfl rfl).symm k) = ix2 p k := funext fun a => Fin.ext (by
    match a with
    | ⟨0, _⟩ => exact outDot_lhs0 _ _
    | ⟨1, _⟩ => exact (outDot_lhs1 _ _).trans hk)
  have er : dot_S512x2048_S2048x64_S512x64_1_0_0_1_n_n.rhsIdx (ix2 p d) ((contrEquiv1 dot_S512x2048_S2048x64_S512x64_1_0_0_1_n_n 2048 rfl rfl).symm k) = ix2 k d := funext fun a => Fin.ext (by
    match a with
    | ⟨0, _⟩ => exact (outDot_rhs0 _ _).trans hk
    | ⟨1, _⟩ => exact outDot_rhs1 _ _)
  rw [el, er]

/-! ## The two row reductions and the column they are kept in -/

/-- The maximum over the key axis of a block of scores, at row `p`: the fold of `max` from `-∞` over the row's entries,
    which is the specification's row maximum of that row. (The reduction inserts the key coordinate `k` on axis 1 of the
    result index `p`, giving `(p, k)`.) -/
theorem rowMax_apply (S : FVec Ideal S512x2048 .f32) (hφ : FKind.Formats .f32)
    (hacc : (0xFF800000#32 : BitVec 32) = FKind.maximumf.neutral .f32 hφ) (p : Fin 512) :
    multiReduction (F := Ideal) .maximumf [1] S512 S 0xFF800000#32 reduces_S512x2048_S512 hφ hacc (ix1 p)
      = rowMax (fun k => S (ix2 p k)) := by
  refine (Ideal.multiReduction_maximumf_single S _ reduces_S512x2048_S512 hφ hacc (ix1 p)).trans ?_
  show (Finset.univ : Finset (Fin 2048)).fold max (Ideal.ofBits .f32 0xFF800000#32)
      (fun k => S (reduces_S512x2048_S512.lift (ix1 p) k)) = _
  unfold rowMax
  refine congrArg (fun f => (Finset.univ : Finset (Fin 2048)).fold max (Ideal.ofBits .f32 0xFF800000#32) f) ?_
  funext k
  exact congrArg S (funext fun a => Fin.ext (by match a with | ⟨0, _⟩ => rfl | ⟨1, _⟩ => rfl))

/-- The sum over the key axis of a block, at row `p`: the sum of the row's entries (the zero word contributes nothing). -/
theorem rowSum_apply (E : FVec Ideal S512x2048 .f32) (hφ : FKind.Formats .f32)
    (hacc : (0x00000000#32 : BitVec 32) = FKind.add.neutral .f32 hφ) (p : Fin 512) :
    multiReduction (F := Ideal) .add [1] S512 E 0x00000000#32 reduces_S512x2048_S512 hφ hacc (ix1 p)
      = ∑ k : Fin 2048, E (ix2 p k) := by
  refine (Ideal.multiReduction_add_single E _ reduces_S512x2048_S512 hφ hacc (ix1 p)).trans ?_
  show ∑ k : Fin 2048, E (reduces_S512x2048_S512.lift (ix1 p) k) = _
  exact Finset.sum_congr rfl fun k _ =>
    congrArg E (funext fun a => Fin.ext (by match a with | ⟨0, _⟩ => rfl | ⟨1, _⟩ => rfl))

/-- A per-row quantity kept as a `[512, 1]` column and copied along the key axis reads, at `(p, j)`, the quantity of
    row `p`. -/
theorem column_apply (c : (⟨2, ![512, 1]⟩ : Shape).Idx → EReal) (p : Fin 512) (j : Fin 2048) :
    broadcastTo S512x2048 c broadcasts_S512x1_S512x2048 (ix2 p j) = c (ix2 p (0 : Fin 1)) :=
  Keepdims.broadcastTo_a1_ab_apply c broadcasts_S512x1_S512x2048 p j 0

/-- … and when the column is a `[512]` vector recast, the vector's entry `p`. -/
theorem keptRow_apply (v : (⟨1, ![512]⟩ : Shape).Idx → EReal) (p : Fin 512) (j : Fin 2048) :
    broadcastTo S512x2048 (shapeCast S512x1 v shapeCasts_S512_S512x1) broadcasts_S512x1_S512x2048 (ix2 p j) = v (ix1 p) :=
  (column_apply _ p j).trans (Keepdims.shapeCast_a_a1_apply v shapeCasts_S512_S512x1 p 0)

/-! ## The softmax of a block of scores -/

/-- A score less its row's maximum, exponentiated: the specification's shifted exponential of the row. -/
theorem shifted_apply (S : FVec Ideal S512x2048 .f32) (hφ : FKind.Formats .f32)
    (hmax : (0xFF800000#32 : BitVec 32) = FKind.maximumf.neutral .f32 hφ) (p : Fin 512) (j : Fin 2048) :
    exp (subf S (broadcastTo S512x2048 (shapeCast S512x1
        (multiReduction (F := Ideal) .maximumf [1] S512 S 0xFF800000#32 reduces_S512x2048_S512 hφ hmax)
        shapeCasts_S512_S512x1) broadcasts_S512x1_S512x2048)) (ix2 p j)
      = expShift (fun k => S (ix2 p k)) j :=
  congrArg (fun m => Ideal.exp (S (ix2 p j) - m)) ((keptRow_apply _ p j).trans (rowMax_apply S hφ hmax p))

/-- One plus the row sum of a block, kept as a column and copied along the key axis. -/
theorem onePlusSum_apply (E : FVec Ideal S512x2048 .f32) (hφ : FKind.Formats .f32)
    (hadd : (0x00000000#32 : BitVec 32) = FKind.add.neutral .f32 hφ) (p : Fin 512) (j : Fin 2048) :
    broadcastTo S512x2048 (addf (broadcast S512x1 (Scalar.ofBits (F := Ideal) .f32 0x3F800000#32))
        (shapeCast S512x1 (multiReduction (F := Ideal) .add [1] S512 E 0x00000000#32 reduces_S512x2048_S512 hφ hadd)
          shapeCasts_S512_S512x1)) broadcasts_S512x1_S512x2048 (ix2 p j)
      = Ideal.ofBits .f32 0x3F800000#32 + ∑ k : Fin 2048, E (ix2 p k) := by
  refine (column_apply _ p j).trans ?_
  exact congrArg (Ideal.ofBits .f32 0x3F800000#32 + ·)
    ((Keepdims.shapeCast_a_a1_apply _ shapeCasts_S512_S512x1 p 0).trans (rowSum_apply E hφ hadd p))

/-- A block `E` whose row `p` holds the shifted exponentials of a score row `s`, divided by one plus its row sums, is at
    `(p, j)` the specification's off-by-one softmax of `s` at `j`. -/
theorem quotient_apply (s : Fin 2048 → EReal) (E : FVec Ideal S512x2048 .f32) (hφ : FKind.Formats .f32)
    (hadd : (0x00000000#32 : BitVec 32) = FKind.add.neutral .f32 hφ) (p : Fin 512)
    (hE : ∀ k : Fin 2048, E (ix2 p k) = expShift s k) (j : Fin 2048) :
    divf E (broadcastTo S512x2048 (addf (broadcast S512x1 (Scalar.ofBits (F := Ideal) .f32 0x3F800000#32))
        (shapeCast S512x1 (multiReduction (F := Ideal) .add [1] S512 E 0x00000000#32 reduces_S512x2048_S512 hφ hadd)
          shapeCasts_S512_S512x1)) broadcasts_S512x1_S512x2048) (ix2 p j)
      = softmax1 s j :=
  congrArg₂ Ideal.div (hE j) ((onePlusSum_apply E hφ hadd p j).trans
    (congrArg (Ideal.ofBits .f32 0x3F800000#32 + ·) (Finset.sum_congr rfl fun k _ => hE k)))

/-! ## The body's two stored values -/

/-- The block of scores the body forms: the query block scaled by 1/8, contracted with the key block. -/
theorem blockScores_apply (P0 : Vec Ideal S1x1x512x64 .f32) (P1 : Vec Ideal S1x1x2048x64 .f32) (p : Fin 512) (j : Fin 2048) :
    matmul (F := Ideal) (φ₁ := .f32) (φ₂ := .f32) dot_S512x64_S2048x64_S512x2048_1_1_0_0_n_n (some .fp32)
        (mulf (shapeCast S512x64 P0 shapeCasts_S1x1x512x64_S512x64) (broadcast S512x64 (Scalar.ofBits (F := Ideal) .f32 0x3E000000#32)))
        (shapeCast S2048x64 P1 shapeCasts_S1x1x2048x64_S2048x64) (constant S512x2048 .f32 0x00000000#32) (ix2 p j)
      = blockScores P0 P1 p j := by
  refine (scoreDot_apply _ _ p j).trans ?_
  unfold blockScores
  refine Finset.sum_congr rfl fun d _ => ?_
  exact congrArg₂ (· * ·)
    (congrArg (· * Ideal.ofBits .f32 0x3E000000#32) (dropUnits_apply P0 shapeCasts_S1x1x512x64_S512x64 p d))
    (dropUnits_apply P1 shapeCasts_S1x1x2048x64_S2048x64 j d)

/-- The weights block of the body at `(p, j)`: the off-by-one softmax of row `p` of the block's scores, at key `j`. -/
theorem pay1_apply (P0 : Vec Ideal S1x1x512x64 .f32) (P1 : Vec Ideal S1x1x2048x64 .f32) (p : Fin 512) (j : Fin 2048) :
    k0_pay1 (F := Ideal) P0 P1 (ix2 p j) = softmax1 (blockScores P0 P1 p) j := by
  unfold k0_pay1
  refine quotient_apply (blockScores P0 P1 p) _ _ _ p (fun k => ?_) j
  refine (shifted_apply _ _ _ p k).trans ?_
  exact congrArg (fun s => expShift s k) (funext fun k' => blockScores_apply P0 P1 p k')

/-- The output block of the body at `(0, 0, p, d)`: the weights of row `p` summed against column `d` of the value block. -/
theorem pay3_apply (P0 : Vec Ideal S1x1x512x64 .f32) (P1 : Vec Ideal S1x1x2048x64 .f32) (P2 : Vec Ideal S1x1x2048x64 .f32)
    (p : Fin 512) (d : Fin 64) :
    k0_pay3 (F := Ideal) P0 P1 P2 (ix4 (0 : Fin 1) (0 : Fin 1) p d)
      = ∑ j : Fin 2048, softmax1 (blockScores P0 P1 p) j * P2 (ix4 (0 : Fin 1) (0 : Fin 1) j d) := by
  unfold k0_pay3
  refine (addUnits_apply _ shapeCasts_S512x64_S1x1x512x64 0 0 p d).trans ?_
  refine (outDot_apply _ _ p d).trans ?_
  exact Finset.sum_congr rfl fun j _ =>
    congrArg₂ (· * ·) (pay1_apply P0 P1 p j) (dropUnits_apply P2 shapeCasts_S1x1x2048x64_S2048x64 j d)

end Cert.Attn.Body

end
-- ==== Proof.Blocks.lean ====
/-
  From what each grid point writes back to the two whole output arrays.

  The grid has one point per (batch, head, query tile): 2 × 16 × 4 points, a tile being 512 consecutive query rows.
  At a point the query block is the tile's 512 rows of one head, the key and value blocks are that head's whole
  sequence of 2048 rows, and the point writes back a 512 × 64 block of the output and a 512 × 2048 block of the
  attention weights, both at block position (batch, head, tile, 0).

  An element of a block sits in its array at block position × block extent + the coordinate inside the block, axis by
  axis. Hence the score rows a point forms from its own blocks are the specification's score rows of the whole arrays
  at (batch, head, tile · 512 + row inside the tile) (`block_scores`), and what the point writes back is the
  specification's output, respectively weights, read through the point's block (`flushed_out_eq`,
  `flushed_weights_eq`). The blocks tile both arrays — the index (b, h, i, ·) lies in the block of the point
  (b, h, i / 512) — so after the run each array IS the specification's function of the three argument arrays
  (`final_out`, `final_weights`, `run`).
-/
import proofs.«137013_j47158740910630_2_alg».proof.Proof.Gen.KernelIdeal.Value
import proofs.«137013_j47158740910630_2_alg».proof.Proof.Spec
import proofs.«137013_j47158740910630_2_alg».proof.Proof.Payload

noncomputable section

namespace Cert.Attn.Kernel

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-- The zero offsets of a whole-buffer rectangle, as the constant function. -/
theorem zero_offsets : (![0, 0, 0, 0] : Fin 4 → Nat) = fun _ => 0 := funext fun a => by fin_cases a <;> rfl

/-- How the five block index maps sit beside one another at a grid point (batch, head, query tile): the query
    window and both output windows are at block (batch, head, tile, 0); the key and value windows are at block
    (batch, head, 0, 0), the whole sequence of the head; batch is below 2, head below 16, tile below 4. -/
theorem index_facts : ∀ t : Fin cfg0.N,
    (win0_0.index t (0 : Fin 4) = win0_3.index t (0 : Fin 4) ∧ win0_0.index t (1 : Fin 4) = win0_3.index t (1 : Fin 4)
      ∧ win0_0.index t (2 : Fin 4) = win0_3.index t (2 : Fin 4) ∧ win0_0.index t (3 : Fin 4) = 0)
    ∧ (win0_1.index t (0 : Fin 4) = win0_3.index t (0 : Fin 4) ∧ win0_1.index t (1 : Fin 4) = win0_3.index t (1 : Fin 4)
      ∧ win0_1.index t (2 : Fin 4) = 0 ∧ win0_1.index t (3 : Fin 4) = 0)
    ∧ (win0_2.index t (0 : Fin 4) = win0_3.index t (0 : Fin 4) ∧ win0_2.index t (1 : Fin 4) = win0_3.index t (1 : Fin 4)
      ∧ win0_2.index t (2 : Fin 4) = 0 ∧ win0_2.index t (3 : Fin 4) = 0)
    ∧ (win0_4.index t (0 : Fin 4) = win0_3.index t (0 : Fin 4) ∧ win0_4.index t (1 : Fin 4) = win0_3.index t (1 : Fin 4)
      ∧ win0_4.index t (2 : Fin 4) = win0_3.index t (2 : Fin 4) ∧ win0_4.index t (3 : Fin 4) = 0)
    ∧ (win0_3.index t (0 : Fin 4) ≤ 1 ∧ win0_3.index t (1 : Fin 4) ≤ 15 ∧ win0_3.index t (2 : Fin 4) ≤ 3
      ∧ win0_3.index t (3 : Fin 4) = 0) :=
  (by decide +kernel : ∀ t : Fin grid0.N, _)

/-- Every (batch, head, query tile) is some grid point's block. -/
theorem index_onto : ∀ (b : Fin 2) (h : Fin 16) (q : Fin 4), ∃ t : Fin cfg0.N, win0_3.index t = ![b.val, h.val, q.val, 0] :=
  (by decide +kernel : ∀ (b : Fin 2) (h : Fin 16) (q : Fin 4), ∃ t : Fin grid0.N, win0_3.index t = ![b.val, h.val, q.val, 0])

/-- An element of the query block at a grid point is the query array's element in the point's batch and head, at the
    row the tile starts at plus the row inside the tile. -/
theorem query_block (c : Dev nD) (t : Fin cfg0.N) (p : Fin 512) (d : Fin 64) (b : Fin 2) (h : Fin 16) (i : Fin 2048)
    (hb : b.val = win0_3.index t (0 : Fin 4)) (hh : h.val = win0_3.index t (1 : Fin 4))
    (hi : i.val = win0_3.index t (2 : Fin 4) * 512 + p.val) :
    iblk m c 0 t (ix4 (0 : Fin 1) (0 : Fin 1) p d) = V m c main_arg0 (ix4 b h i d) := by
  obtain ⟨⟨e0, e1, e2, e3⟩, -⟩ := index_facts t
  show V m c main_arg0 (((cfg0.win 0).blk t).view.emb (ix4 (0 : Fin 1) (0 : Fin 1) p d)) = V m c main_arg0 (ix4 b h i d)
  refine congrArg _ (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * p.val = i.val; omega
  | ⟨3, _⟩ => show win0_0.index t (3 : Fin 4) * 64 + 1 * d.val = d.val; omega

/-- An element of the key block at a grid point is the key array's element in the point's batch and head, at the same
    key position: the block is the head's whole sequence. -/
theorem key_block (c : Dev nD) (t : Fin cfg0.N) (j : Fin 2048) (d : Fin 64) (b : Fin 2) (h : Fin 16)
    (hb : b.val = win0_3.index t (0 : Fin 4)) (hh : h.val = win0_3.index t (1 : Fin 4)) :
    iblk m c 1 t (ix4 (0 : Fin 1) (0 : Fin 1) j d) = V m c main_arg1 (ix4 b h j d) := by
  obtain ⟨-, ⟨e0, e1, e2, e3⟩, -⟩ := index_facts t
  show V m c main_arg1 (((cfg0.win 1).blk t).view.emb (ix4 (0 : Fin 1) (0 : Fin 1) j d)) = V m c main_arg1 (ix4 b h j d)
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * j.val = j.val; omega
  | ⟨3, _⟩ => show win0_1.index t (3 : Fin 4) * 64 + 1 * d.val = d.val; omega

/-- The same for the value block. -/
theorem value_block (c : Dev nD) (t : Fin cfg0.N) (j : Fin 2048) (d : Fin 64) (b : Fin 2) (h : Fin 16)
    (hb : b.val = win0_3.index t (0 : Fin 4)) (hh : h.val = win0_3.index t (1 : Fin 4)) :
    iblk m c 2 t (ix4 (0 : Fin 1) (0 : Fin 1) j d) = V m c main_arg2 (ix4 b h j d) := by
  obtain ⟨-, -, ⟨e0, e1, e2, e3⟩, -⟩ := index_facts t
  show V m c main_arg2 (((cfg0.win 2).blk t).view.emb (ix4 (0 : Fin 1) (0 : Fin 1) j d)) = V m c main_arg2 (ix4 b h j d)
  refine congrArg _ (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * j.val = j.val; omega
  | ⟨3, _⟩ => show win0_2.index t (3 : Fin 4) * 64 + 1 * d.val = d.val; omega

/-- So the score rows a grid point forms from its blocks are the specification's score rows of the whole arrays, at the
    point's batch and head and at the query row the tile starts at plus the row inside the tile. -/
theorem block_scores (c : Dev nD) (t : Fin cfg0.N) (p : Fin 512) (b : Fin 2) (h : Fin 16) (i : Fin 2048)
    (hb : b.val = win0_3.index t (0 : Fin 4)) (hh : h.val = win0_3.index t (1 : Fin 4))
    (hi : i.val = win0_3.index t (2 : Fin 4) * 512 + p.val) :
    blockScores (iblk m c 0 t) (iblk m c 1 t) p = scoresScaledQ (V m c main_arg0) (V m c main_arg1) b h i := by
  funext j
  unfold blockScores scoresScaledQ
  refine Finset.sum_congr rfl fun d _ => ?_
  rw [query_block m c t p d b h i hb hh hi, key_block m c t j d b h hb hh]

/-- Where an element of a grid point's weights block sits in the weights array. -/
theorem weights_place (t : Fin cfg0.N) (p : Fin 512) (j : Fin 2048) (b : Fin 2) (h : Fin 16) (i : Fin 2048)
    (hb : b.val = win0_3.index t (0 : Fin 4)) (hh : h.val = win0_3.index t (1 : Fin 4))
    (hi : i.val = win0_3.index t (2 : Fin 4) * 512 + p.val) :
    (((cfg0.win 4).blk t).view.emb (ix4 (0 : Fin 1) (0 : Fin 1) p j) : S2x16x2048x2048.Idx) = ix4 b h i j := by
  obtain ⟨-, -, -, ⟨e0, e1, e2, e3⟩, -⟩ := index_facts t
  refine funext fun a => Fin.ext ?_
  match a with
  | ⟨0, _⟩ => show win0_4.index t (0 : Fin 4) * 1 + 1 * 0 = b.val; omega
  | ⟨1, _⟩ => show win0_4.index t (1 : Fin 4) * 1 + 1 * 0 = h.val; omega
  | ⟨2, _⟩ => show win0_4.index t (2 : Fin 4) * 512 + 1 * p.val = i.val; omega
  | ⟨3, _⟩ => show win0_4.index t (3 : Fin 4) * 2048 + 1 * j.val = j.val; omega

/-- Where an element of a grid point's output block sits in the output array. -/
theorem out_place (t : Fin cfg0.N) (p : Fin 512) (d : Fin 64) (b : Fin 2) (h : Fin 16) (i : Fin 2048)
    (hb : b.val = win0_3.index t (0 : Fin 4)) (hh : h.val = win0_3.index t (1 : Fin 4))
    (hi : i.val = win0_3.index t (2 : Fin 4) * 512 + p.val) :
    (((cfg0.win 3).blk t).view.emb (ix4 (0 : Fin 1) (0 : Fin 1) p d) : S2x16x2048x64.Idx) = ix4 b h i d := by
  obtain ⟨-, -, -, -, ⟨r0, r1, r2, r3⟩⟩ := index_facts t
  refine funext fun a => Fin.ext ?_
  match a with
  | ⟨0, _⟩ => show win0_3.index t (0 : Fin 4) * 1 + 1 * 0 = b.val; omega
  | ⟨1, _⟩ => show win0_3.index t (1 : Fin 4) * 1 + 1 * 0 = h.val; omega
  | ⟨2, _⟩ => show win0_3.index t (2 : Fin 4) * 512 + 1 * p.val = i.val; omega
  | ⟨3, _⟩ => show win0_3.index t (3 : Fin 4) * 64 + 1 * d.val = d.val; omega

/-- What the body leaves in the weights buffer, for any loaded blocks: at row `p`, key position `j`, the softmax of
    the block's score row `p` at `j` (the stored value is the 512 × 2048 weights with two unit axes put in front). -/
theorem weights_buffer (P0 : Vec Ideal S1x1x512x64 .f32) (P1 : Vec Ideal S1x1x2048x64 .f32) (p : Fin 512) (j : Fin 2048) :
    View.canon [(⟨r0_2, k0_pay2 (F := Ideal) P0 P1⟩ : View.Piece (Elt Ideal) S1x1x512x2048 .f32)] (ix4 (0 : Fin 1) (0 : Fin 1) p j)
      = softmax1 (blockScores P0 P1 p) j := by
  refine (Cert.KernelIdeal.Value.canon4_eq P0 P1 _).trans ?_
  refine Eq.trans ?_ (Cert.Attn.Body.pay1_apply P0 P1 p j)
  show k0_pay1 P0 P1 (Cert.KernelIdeal.Value.ix4_0 (ix4 (0 : Fin 1) (0 : Fin 1) p j)) = k0_pay1 P0 P1 (ix2 p j)
  refine congrArg _ (funext fun a => ?_)
  match a with
  | ⟨0, _⟩ => rfl
  | ⟨1, _⟩ => rfl

/-- What the grid point `t` leaves in the weights buffer, element by element. -/
theorem weights_at (c : Dev nD) (t : Fin cfg0.N) (y : S1x1x512x2048.Idx) :
    out0_4 (iblk m c 0 t) (iblk m c 1 t) (iblk m c 2 t) y
      = weightsOf (scoresScaledQ (V m c main_arg0) (V m c main_arg1)) (((cfg0.win 4).blk t).view.emb y) := by
  obtain ⟨-, -, -, -, ⟨r0, r1, r2, r3⟩⟩ := index_facts t
  obtain ⟨y0, y1, p, j, rfl⟩ : ∃ (y0 : Fin 1) (y1 : Fin 1) (p : Fin 512) (j : Fin 2048), y = ix4 y0 y1 p j :=
    ⟨y 0, y 1, y 2, y 3, eq_ix4 y⟩
  obtain rfl : y0 = 0 := Subsingleton.elim _ _
  obtain rfl : y1 = 0 := Subsingleton.elim _ _
  have hp : p.val < 512 := p.isLt
  unfold out0_4
  simp only [View.ld_unit_zero (S := S1x1x512x64) zero_offsets, View.ld_unit_zero (S := S1x1x2048x64) zero_offsets]
  refine (weights_buffer (iblk m c 0 t) (iblk m c 1 t) p j).trans ?_
  rw [block_scores m c t p ⟨win0_3.index t (0 : Fin 4), by omega⟩ ⟨win0_3.index t (1 : Fin 4), by omega⟩
      ⟨win0_3.index t (2 : Fin 4) * 512 + p.val, by omega⟩ rfl rfl rfl,
    weights_place t p j ⟨win0_3.index t (0 : Fin 4), by omega⟩ ⟨win0_3.index t (1 : Fin 4), by omega⟩
      ⟨win0_3.index t (2 : Fin 4) * 512 + p.val, by omega⟩ rfl rfl rfl]
  rfl

/-- WHAT THE GRID POINT `t` WRITES BACK to the weights array is block `t` of the specification's weights. -/
theorem flushed_weights_eq (c : Dev nD) (t : Fin cfg0.N) :
    (dats m 0 c).flushed 4 t = ((cfg0.win 4).blk t).view.read (Elt Ideal) (weightsOf (scoresScaledQ (V m c main_arg0) (V m c main_arg1))) := by
  rw [Cert.KernelIdeal.Value.flushed4]
  funext y
  exact weights_at m c t y

/-- What the grid point `t` leaves in the output buffer, element by element: the point's weights summed against a
    column of its value block, which is the specification's output at the element's place in the array. -/
theorem out_at (c : Dev nD) (t : Fin cfg0.N) (y : S1x1x512x64.Idx) :
    out0_3 (iblk m c 0 t) (iblk m c 1 t) (iblk m c 2 t) y
      = outputOf (scoresScaledQ (V m c main_arg0) (V m c main_arg1)) (V m c main_arg2) (((cfg0.win 3).blk t).view.emb y) := by
  obtain ⟨-, -, -, -, ⟨r0, r1, r2, r3⟩⟩ := index_facts t
  obtain ⟨y0, y1, p, d, rfl⟩ : ∃ (y0 : Fin 1) (y1 : Fin 1) (p : Fin 512) (d : Fin 64), y = ix4 y0 y1 p d :=
    ⟨y 0, y 1, y 2, y 3, eq_ix4 y⟩
  obtain rfl : y0 = 0 := Subsingleton.elim _ _
  obtain rfl : y1 = 0 := Subsingleton.elim _ _
  have hp : p.val < 512 := p.isLt
  unfold out0_3
  rw [View.canon_unit_zero zero_offsets]
  simp only [View.ld_unit_zero (S := S1x1x512x64) zero_offsets, View.ld_unit_zero (S := S1x1x2048x64) zero_offsets]
  refine (Cert.Attn.Body.pay3_apply (iblk m c 0 t) (iblk m c 1 t) (iblk m c 2 t) p d).trans ?_
  rw [block_scores m c t p ⟨win0_3.index t (0 : Fin 4), by omega⟩ ⟨win0_3.index t (1 : Fin 4), by omega⟩
      ⟨win0_3.index t (2 : Fin 4) * 512 + p.val, by omega⟩ rfl rfl rfl,
    out_place t p d ⟨win0_3.index t (0 : Fin 4), by omega⟩ ⟨win0_3.index t (1 : Fin 4), by omega⟩
      ⟨win0_3.index t (2 : Fin 4) * 512 + p.val, by omega⟩ rfl rfl rfl]
  refine Finset.sum_congr rfl fun j _ => ?_
  rw [value_block m c t j d ⟨win0_3.index t (0 : Fin 4), by omega⟩ ⟨win0_3.index t (1 : Fin 4), by omega⟩ rfl rfl]

/-- WHAT THE GRID POINT `t` WRITES BACK to the output array is block `t` of the specification's output. -/
theorem flushed_out_eq (c : Dev nD) (t : Fin cfg0.N) :
    (dats m 0 c).flushed 3 t = ((cfg0.win 3).blk t).view.read (Elt Ideal) (outputOf (scoresScaledQ (V m c main_arg0) (V m c main_arg1)) (V m c main_arg2)) := by
  rw [Cert.KernelIdeal.Value.flushed3]
  funext y
  exact out_at m c t y

/-- An index of the output array is in the grid point's block iff each coordinate is in the block's range on its axis. -/
theorem mem_out_block (t : Fin cfg0.N) (i : S2x16x2048x64.Idx) :
    i ∈ ((cfg0.win 3).blk t).view.set ↔ ∀ a : Fin 4, win0_3.index t a * S1x1x512x64.size a ≤ (i a).val ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- The same for the weights array. -/
theorem mem_weights_block (t : Fin cfg0.N) (i : S2x16x2048x2048.Idx) :
    i ∈ ((cfg0.win 4).blk t).view.set ↔ ∀ a : Fin 4, win0_4.index t a * S1x1x512x2048.size a ≤ (i a).val ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

/-- The blocks tile the output array: the index (b, h, i, d) is in the block of the point (b, h, i / 512). -/
theorem out_cover (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := index_onto ⟨(i 0).val, hi0⟩ ⟨(i 1).val, hi1⟩ ⟨(i 2).val / 512, by omega⟩
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  have q3 : win0_3.index t (3 : Fin 4) = 0 := congrFun ht 3
  refine ⟨t, flush0_3 t, ?_⟩
  rw [mem_out_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The blocks tile the weights array: the index (b, h, i, j) is in the block of the point (b, h, i / 512). -/
theorem weights_cover (i : S2x16x2048x2048.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := index_onto ⟨(i 0).val, hi0⟩ ⟨(i 1).val, hi1⟩ ⟨(i 2).val / 512, by omega⟩
  obtain ⟨-, -, -, ⟨e0, e1, e2, e3⟩, -⟩ := index_facts t
  have q0 : win0_3.index t (0 : Fin 4) = (i 0).val := congrFun ht 0
  have q1 : win0_3.index t (1 : Fin 4) = (i 1).val := congrFun ht 1
  have q2 : win0_3.index t (2 : Fin 4) = (i 2).val / 512 := congrFun ht 2
  refine ⟨t, flush0_4 t, ?_⟩
  rw [mem_weights_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

/-- THE OUTPUT ARRAY after the run is the specification's output of the three argument arrays. -/
theorem final_out (c : Dev nD) : (dats m 0 c).arrAt 3 cfg0.N = outputOf (scoresScaledQ (m ((c : Thread nD τ).loc main_arg0)) (m ((c : Thread nD τ).loc main_arg1))) (m ((c : Thread nD τ).loc main_arg2)) :=
  (dats m 0 c).arrAt_eq_of_cover 3 (outputOf (scoresScaledQ (V m c main_arg0) (V m c main_arg1)) (V m c main_arg2))
    (fun t _ => flushed_out_eq m c t) out_cover

/-- THE WEIGHTS ARRAY after the run is the specification's weights of the query and key arrays. -/
theorem final_weights (c : Dev nD) : (dats m 0 c).arrAt 4 cfg0.N = weightsOf (scoresScaledQ (m ((c : Thread nD τ).loc main_arg0)) (m ((c : Thread nD τ).loc main_arg1))) :=
  (dats m 0 c).arrAt_eq_of_cover 4 (weightsOf (scoresScaledQ (V m c main_arg0) (V m c main_arg1)))
    (fun t _ => flushed_weights_eq m c t) weights_cover

/-- The kernel's run re-posted: each output array at the specification's function of the argument arrays, the
    arguments unchanged. -/
theorem run : θ_run defs (onTc (τ := τ) (main (F := Ideal))) ⟨m, fun _ => 0, ρ⟩ fun r => ∀ c : Dev nD,
      r.2.mem ((c : Thread nD τ).loc main_v0_0) = outputOf (scoresScaledQ (m ((c : Thread nD τ).loc main_arg0)) (m ((c : Thread nD τ).loc main_arg1))) (m ((c : Thread nD τ).loc main_arg2))
      ∧ r.2.mem ((c : Thread nD τ).loc main_v0_1) = weightsOf (scoresScaledQ (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c), (h c).2.1.trans (final_weights m c), (h c).2.2⟩)
    (Cert.KernelIdeal.Value.run_blocks m ρ)

end Cert.Attn.Kernel

end
-- ==== Proof.lean ====
/-
  Scaled dot-product attention with the off-by-one softmax, over q, k, v : f32[2, 16, 2048, 64]: for each batch, head
  and query position i, the scores s_j = ⟨q_i, k_j⟩ / 8 over the 2048 key positions, the weights
  p_j = exp (s_j - max s) / (1 + ∑_j exp (s_j - max s)), and the output o = ∑_j p_j · v_j. Both programs return the
  output and the weights.

  The kernel takes one head and 512 query rows per grid step: it multiplies the query block by the float word for 1/8,
  contracts it with the head's whole key block, takes each row's maximum, exponentials, sum and quotient, stores the
  [512, 2048] block of weights and its product with the head's value block. The reference contracts whole arrays,
  multiplies the sums by 1 / √64 formed on the host, and applies the same row operations in the same order.

  At the exact extended-real reading every row operation is the same function on both sides (Spec: `rowMax`,
  `expShift`, `denom`, `softmax1`), so the two results are `weightsOf` / `outputOf` of their score families
  (RefSide for the reference; Payload and Blocks for the kernel: each grid step writes the block of that one whole-array
  function which its index map names, and the 128 blocks tile both output arrays). The score families differ by where
  the factor 1/8 stands — inside or outside the contraction over the head dimension — which is distributivity, and
  holds because the precondition makes every entry of q and k a real number (Finite, ScaleLaw).

  The three frame claims are the generated frames and the generated reference run; the idealization rewrote nothing.
-/
import proofs.«137013_j47158740910630_2_alg».proof.Defs
import proofs.«137013_j47158740910630_2_alg».proof.Proof.Gen.Kernel
import proofs.«137013_j47158740910630_2_alg».proof.Proof.Gen.Kernel.Skeleton
import proofs.«137013_j47158740910630_2_alg».proof.Proof.Gen.Kernel.Launch
import proofs.«137013_j47158740910630_2_alg».proof.Proof.Gen.Kernel.Points
import proofs.«137013_j47158740910630_2_alg».proof.Proof.Gen.Kernel.Frame
import proofs.«137013_j47158740910630_2_alg».proof.Proof.Gen.KernelIdeal
import proofs.«137013_j47158740910630_2_alg».proof.Proof.Gen.KernelIdeal.Skeleton
import proofs.«137013_j47158740910630_2_alg».proof.Proof.Gen.KernelIdeal.Launch
import proofs.«137013_j47158740910630_2_alg».proof.Proof.Gen.KernelIdeal.Points
import proofs.«137013_j47158740910630_2_alg».proof.Proof.Gen.KernelIdeal.Frame
import proofs.«137013_j47158740910630_2_alg».proof.Proof.Gen.ReferenceIdeal
import proofs.«137013_j47158740910630_2_alg».proof.Proof.Gen.Pre_finite_inputs
import proofs.«137013_j47158740910630_2_alg».proof.Proof.Gen.KernelIdeal.Value
import proofs.«137013_j47158740910630_2_alg».proof.Proof.Gen.ReferenceIdeal.Run
import proofs.«137013_j47158740910630_2_alg».proof.Proof.Gen.ReferenceIdeal.Read
import proofs.«137013_j47158740910630_2_alg».proof.Proof.Spec
import proofs.«137013_j47158740910630_2_alg».proof.Proof.ScaleLaw
import proofs.«137013_j47158740910630_2_alg».proof.Proof.Finite
import proofs.«137013_j47158740910630_2_alg».proof.Proof.RefSide
import proofs.«137013_j47158740910630_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates without a fault and leaves q, k, v as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run ends with its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote none of its operations. -/
theorem preserves : Cert.preserves_Kernel_KernelIdeal := trivial

/-- From memories that agree on q, k, v, all of whose entries are real numbers, both programs end with the output at
    `outputOf` and the weights at `weightsOf` of the scores with the factor 1/8 inside the contraction: the kernel by
    its blocks, the reference by its operations read one at a time and then the factor moved inside the sum. -/
theorem algebraic : Cert.algebraic_KernelIdeal_ReferenceIdeal := by
  intro m ρ m' ρ' hpre hagree
  refine ⟨_, _, Cert.Attn.Kernel.run m ρ, ?_⟩
  refine (θ_run Cert.ReferenceIdeal.defs _ _).mono (fun _ h c => ?_) (Cert.ReferenceIdeal.Value.run (F := Ideal) m' ρ')
  obtain ⟨hq, hk, -⟩ := Cert.Attn.Pre.real_of_pre _ _ _ (hpre c)
  have hs := Cert.Attn.Scale.scores_eq _ _ hq hk
  refine ⟨?_, ?_, (h c).2.2⟩
  · rw [(h c).1, Cert.ReferenceIdeal.Read.val_main_v16_eq, Cert.Attn.Ref.ref_output, (hagree c).1, (hagree c).2.1,
      (hagree c).2.2, hs]
  · rw [(h c).2.1, Cert.ReferenceIdeal.Read.val_main_v15_eq, Cert.Attn.Ref.ref_weights, (hagree c).1, (hagree c).2.1, hs]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
